-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg6 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg6
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S64x8192 .f32) (main_arg1 : IVec S8192x8192 32) (main_arg2 : FVec F S8192 .f32) (main_arg3 : FVec F S8192 .f32) (main_arg4 : IVec S8192 32) (main_arg5 : FVec F S8192 .f32) (main_arg6 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg5
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg6 main_v13 main_v16
-- ==== Kernel.lean ====
abbrev S64x8192 : Shape := ⟨2, ![64, 8192]⟩
abbrev S8192x8192 : Shape := ⟨2, ![8192, 8192]⟩
abbrev S8192 : Shape := ⟨1, ![8192]⟩
abbrev S1x8192 : Shape := ⟨2, ![1, 8192]⟩
abbrev S_ : Shape := ⟨0, ![]⟩
abbrev S64 : Shape := ⟨1, ![64]⟩
abbrev S64x1 : Shape := ⟨2, ![64, 1]⟩
abbrev S64x2048 : Shape := ⟨2, ![64, 2048]⟩
abbrev S1024x2048 : Shape := ⟨2, ![1024, 2048]⟩
abbrev S1x1024 : Shape := ⟨2, ![1, 1024]⟩
abbrev S64x1024 : Shape := ⟨2, ![64, 1024]⟩

abbrev nBuf : Space → Nat
  | .hbm => 16
  | .vmem => 18
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S8192, .i32⟩
  | .hbm, ⟨5, _⟩ => ⟨S8192, .f32⟩
  | .hbm, ⟨6, _⟩ => ⟨S8192, .f32⟩
  | .hbm, ⟨7, _⟩ => ⟨S1x8192, .f32⟩
  | .hbm, ⟨8, _⟩ => ⟨S1x8192, .f32⟩
  | .hbm, ⟨9, _⟩ => ⟨S1x8192, .i32⟩
  | .hbm, ⟨10, _⟩ => ⟨S1x8192, .f32⟩
  | .hbm, ⟨11, _⟩ => ⟨S1x8192, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S64x8192, .f32⟩
  | .local _ .vmem, ⟨0, _⟩ => ⟨S64x2048, .f32⟩
  | .local _ .vmem, ⟨1, _⟩ => ⟨S64x2048, .f32⟩
  | .local _ .vmem, ⟨2, _⟩ => ⟨S1024x2048, .i32⟩
  | .local _ .vmem, ⟨3, _⟩ => ⟨S1024x2048, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .i32⟩
  | .local _ .vmem, ⟨9, _⟩ => ⟨S1x1024, .i32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S64x1, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S8192_S1x8192 : S8192.ShapeCasts S1x8192
  reducesTo_S64x8192_S64_d1 : S64x8192.ReducesTo [1] S64
  h_S_ : 0 < S_.numel
  bcast_S64_S64x1_0 : S64.BroadcastsInDim S64x1 (![0] : Fin 1 → Fin S64x1.rank)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x2048_S1024x2048_0_0 : ∀ a, (![0, 0] : Fin 2 → Nat) a + S1024x2048.size a ≤ S1024x2048.size a
  h_S1024x2048 : 0 < S1024x2048.numel
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S1x1024_S64x1024 : S1x1024.Broadcasts S64x1024
  broadcasts_S64x1_S64x1024 : S64x1.Broadcasts S64x1024
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x8192.size a
  hwx0_0 : ∀ i : grid0.Coords, EltTy.bits .f32 = 32 ∨ (Rect.block (s := S64x8192) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .i32 = 32 ∨ (Rect.block (s := S8192x8192) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .i32 = 32 ∨ (Rect.block (s := S1x8192) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S64x8192.size a
  hwx0_8 : ∀ i : grid0.Coords, EltTy.bits .f32 = 32 ∨ (Rect.block (s := S64x8192) S64x1024.size (cc0_transform_8 i) (hinb0_8 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S8192, .i32⟩
  | .hbm, ⟨5, _⟩ => ⟨S8192, .f32⟩
  | .hbm, ⟨6, _⟩ => ⟨S8192, .f32⟩
  | .hbm, ⟨7, _⟩ => ⟨S8192x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S64x8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S1x8192, .f32⟩
  | .hbm, ⟨19, _⟩ => ⟨S64x8192, .f32⟩
  | .hbm, ⟨20, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_1_0_0_n_n_wf : DotDims.WF S64x8192 S8192x8192 S64x8192 [1] [1] [0] [0] [] []

variable [Facts₀]

def dot_S64x8192_S8192x8192_S64x8192_1_1_0_0_n_n : DotDims S64x8192 S8192x8192 S64x8192 where
  lhsContracting := [1]
  rhsContracting := [1]
  lhsNonContracting := [0]
  rhsNonContracting := [0]
  lhsBatch := []
  rhsBatch := []
  wf := dot_S64x8192_S8192x8192_S64x8192_1_1_0_0_n_n_wf

class Facts : Prop extends Facts₀ where

variable [Facts]
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.LibAffineFactor.lean ====
/-
  An affine map factored out of an inner product, on the extended reals.

  For real numbers a, b over a finite index set and real s, z,

      (∑ₖ aₖ · bₖ) · s + (∑ₖ aₖ) · z  =  ∑ₖ aₖ · (bₖ · s + z).

  This is what lets a per-channel dequantization (a scale s and a zero point z applied to every stored weight bₖ) be
  applied once to an accumulated integer product and to the sum of the activations instead of once per weight. Read in
  the extended reals it holds for real entries only: the step distributes a product over a sum, which fails at
  opposite infinities. Both sides are coercions of real numbers, and the identity is the real one.
-/
import Mathlib.Data.EReal.Inv
import Mathlib.Tactic.Ring
import Mathlib.Algebra.BigOperators.Ring.Finset
import proofs.«106551_j43894565765814_2_alg».proof.Proof.LibERealSum

namespace Cert.Lib

open scoped BigOperators

/-- Over real numbers: (∑ a·b)·s + (∑ a)·z = ∑ a·(b·s + z), read in the extended reals. -/
theorem factor_affine {ι : Type*} (t : Finset ι) (a b : ι → ℝ) (s z : ℝ) :
    (∑ k ∈ t, ((a k : ℝ) : EReal) * ((b k : ℝ) : EReal)) * (s : EReal) + (∑ k ∈ t, ((a k : ℝ) : EReal)) * (z : EReal)
      = ∑ k ∈ t, ((a k : ℝ) : EReal) * (((b k : ℝ) : EReal) * (s : EReal) + (z : EReal)) := by
  simp only [← EReal.coe_mul, ← EReal.coe_add, Cert.Lib.sum_coe]
  refine congrArg _ ?_
  rw [Finset.sum_mul, Finset.sum_mul, ← Finset.sum_add_distrib]
  exact Finset.sum_congr rfl fun k _ => by ring

end Cert.Lib
-- ==== Proof.Spec.lean ====
/-
  A quantized linear layer on the extended reals, written two ways.

  The weight is stored as integers w[o, i] with one scale s[o] and one zero point z[o] per output channel, the bias as
  integers bq[o] with a scale bs[o] and a zero point bz[o]. The layer's output at (b, o) is

      ∑ᵢ x[b, i] · (w[o, i] · s[o] + z[o])  +  (bq[o] · bs[o] + bz[o])                                   (`G`)

  and the same number with the affine map factored out of the sum is

      (∑ᵢ x[b, i] · w[o, i]) · s[o]  +  (∑ᵢ x[b, i]) · z[o]  +  (bq[o] · bs[o] + bz[o])                  (`K`)

  The two agree when x, s and z are real numbers: the step from one to the other distributes a product over a sum,
  which the extended reals allow only away from the infinities. The bias term is the same expression on both
  sides and may be anything.
-/
import Idealize.ShloMosaic.PureOps.Ideal
import Idealize.ShloMosaic.Lib.ValueIdx
import proofs.«106551_j43894565765814_2_alg».proof.Proof.LibERealSum
import proofs.«106551_j43894565765814_2_alg».proof.Proof.LibAffineFactor

noncomputable section

namespace Cert.QLinear

open Idealize.ShloMosaic Idealize.ShloMosaic.ValueIdx

/-- The activations: 64 rows of 8192 numbers. -/
abbrev SX : Shape := ⟨2, ![64, 8192]⟩
/-- The weight: 8192 output channels by 8192 inputs. -/
abbrev SW : Shape := ⟨2, ![8192, 8192]⟩
/-- One number per output channel. -/
abbrev SV : Shape := ⟨1, ![8192]⟩

/-- A stored integer read as a real number. -/
abbrev ofWord (b : BitVec 32) : EReal := ((b.toInt : ℝ) : EReal)

/-- The bias of output channel `o`: bq[o] · bs[o] + bz[o]. -/
def bias (bq : SV.Idx → BitVec 32) (bs bz : SV.Idx → EReal) (o : Fin 8192) : EReal :=
  ofWord (bq (ix1 o)) * bs (ix1 o) + bz (ix1 o)

/-- The layer with the weight dequantized entry by entry, at row `p` and output channel `o`. -/
def Gat (x : SX.Idx → EReal) (w : SW.Idx → BitVec 32) (s z : SV.Idx → EReal) (bq : SV.Idx → BitVec 32)
    (bs bz : SV.Idx → EReal) (p : Fin 64) (o : Fin 8192) : EReal :=
  (∑ k : Fin 8192, x (ix2 p k) * (ofWord (w (ix2 o k)) * s (ix1 o) + z (ix1 o))) + bias bq bs bz o

/-- The layer with the scale and the zero point applied once per output entry, at row `p` and output channel `o`. -/
def Kat (x : SX.Idx → EReal) (w : SW.Idx → BitVec 32) (s z : SV.Idx → EReal) (bq : SV.Idx → BitVec 32)
    (bs bz : SV.Idx → EReal) (p : Fin 64) (o : Fin 8192) : EReal :=
  ((∑ k : Fin 8192, x (ix2 p k) * ofWord (w (ix2 o k))) * s (ix1 o) + (∑ k : Fin 8192, x (ix2 p k)) * z (ix1 o))
    + bias bq bs bz o

/-- The first form as an array. -/
def G (x : SX.Idx → EReal) (w : SW.Idx → BitVec 32) (s z : SV.Idx → EReal) (bq : SV.Idx → BitVec 32)
    (bs bz : SV.Idx → EReal) : SX.Idx → EReal := fun i => Gat x w s z bq bs bz (i 0) (i 1)

/-- The second form as an array. -/
def K (x : SX.Idx → EReal) (w : SW.Idx → BitVec 32) (s z : SV.Idx → EReal) (bq : SV.Idx → BitVec 32)
    (bs bz : SV.Idx → EReal) : SX.Idx → EReal := fun i => Kat x w s z bq bs bz (i 0) (i 1)

/-- The two forms are one array when the activations, the scales and the zero points are real numbers. -/
theorem K_eq_G (x : SX.Idx → EReal) (w : SW.Idx → BitVec 32) (s z : SV.Idx → EReal) (bq : SV.Idx → BitVec 32)
    (bs bz : SV.Idx → EReal) (hx : ∀ i, ∃ r : ℝ, x i = (r : EReal)) (hs : ∀ i, ∃ r : ℝ, s i = (r : EReal))
    (hz : ∀ i, ∃ r : ℝ, z i = (r : EReal)) : K x w s z bq bs bz = G x w s z bq bs bz := by
  funext i
  choose xr hxr using hx
  obtain ⟨sr, hsr⟩ := hs (ix1 (i 1))
  obtain ⟨zr, hzr⟩ := hz (ix1 (i 1))
  unfold K G Kat Gat
  refine congrArg (· + bias bq bs bz (i 1)) ?_
  simp only [hxr, hsr, hzr, ofWord]
  exact Cert.Lib.factor_affine Finset.univ (fun k => xr (ix2 (i 0) k)) (fun k => ((w (ix2 (i 1) k)).toInt : ℝ)) sr zr

/-! ## The arrays on natural-number coordinates

  A running sum over the first n columns is a sum over `Finset.range n`; these read an array at natural-number
  coordinates, zero outside it. -/

/-- Row `p` of the activations at column `i`. -/
def xAt (x : SX.Idx → EReal) (p : Fin 64) (i : ℕ) : EReal := if h : i < 8192 then x (ix2 p ⟨i, h⟩) else 0

/-- The weight at (r, i), as a real number. -/
def wAt (w : SW.Idx → BitVec 32) (r i : ℕ) : EReal :=
  if h : r < 8192 ∧ i < 8192 then ofWord (w (ix2 (⟨r, h.1⟩ : Fin 8192) (⟨i, h.2⟩ : Fin 8192))) else 0

/-- The sum over all 8192 columns of row `p` against weight row `o`, from the natural-number form. -/
theorem sum_range_eq (x : SX.Idx → EReal) (w : SW.Idx → BitVec 32) (p : Fin 64) (o : Fin 8192) :
    ∑ i ∈ Finset.range 8192, xAt x p i * wAt w o.val i = ∑ k : Fin 8192, x (ix2 p k) * ofWord (w (ix2 o k)) := by
  rw [← Fin.sum_univ_eq_sum_range (fun i => xAt x p i * wAt w o.val i) 8192]
  refine Finset.sum_congr rfl fun k _ => ?_
  unfold xAt wAt
  rw [dif_pos k.isLt, dif_pos ⟨o.isLt, k.isLt⟩]

end Cert.QLinear

end
-- ==== Proof.RefIsG.lean ====
/-
  The reference program computes the layer in its first form.

  Read at an index (b, o), the reference's result is the sum over i of x[b, i] · (w[o, i] · s[o] + z[o]) plus the bias
  bq[o] · bs[o] + bz[o]: the weight is dequantized entry by entry (a convert, two broadcasts along the row, a product and
  a sum), contracted with the activations along the second axis of both, and the bias — itself a convert, a product and a
  sum — is repeated over the rows and added. Each broadcast reads its operand at the index with the repeated axis dropped,
  so the composed index maps are the coordinate projections, and the result is `G` entry by entry.
-/
import proofs.«106551_j43894565765814_2_alg».proof.Proof.Gen.ReferenceIdeal.Read
import proofs.«106551_j43894565765814_2_alg».proof.Proof.Spec

noncomputable section

namespace Cert.QLinear.Ref

open Idealize.ShloMosaic Idealize.ShloMosaic.ValueIdx Cert.ReferenceIdeal Cert.ReferenceIdeal.Read

/-- The left operand of the contraction is read at (row of the output, k). -/
theorem lidx_eq (i : S64x8192.Idx) (k : Fin 8192) : lidx_main_v7 i k = ix2 (i 0 : Fin 64) k :=
  funext fun a => by match a with | ⟨0, _⟩ => rfl | ⟨1, _⟩ => rfl

/-- The right operand of the contraction is read at (column of the output, k). -/
theorem ridx_eq (i : S64x8192.Idx) (k : Fin 8192) : ridx_main_v7 i k = ix2 (i 1 : Fin 8192) k :=
  funext fun a => by match a with | ⟨0, _⟩ => rfl | ⟨1, _⟩ => rfl

/-- A per-channel vector repeated along the rows of the weight is read at the channel: the scale. -/
theorem idx_scale (j : S8192x8192.Idx) : idx_main_v1 (idx_main_v2 j) = ix1 (j 0 : Fin 8192) :=
  funext fun a => by match a with | ⟨0, _⟩ => rfl

/-- A per-channel vector repeated along the rows of the weight is read at the channel: the zero point. -/
theorem idx_zero (j : S8192x8192.Idx) : idx_main_v4 (idx_main_v5 j) = ix1 (j 0 : Fin 8192) :=
  funext fun a => by match a with | ⟨0, _⟩ => rfl

/-- The bias repeated over the rows of the output is read at the column. -/
theorem idx_bias (i : S64x8192.Idx) : idx_main_v11 (idx_main_v12 i) = ix1 (i 1 : Fin 8192) :=
  funext fun a => by match a with | ⟨0, _⟩ => rfl

/-- One entry of the dequantized weight: w[o, k] · s[o] + z[o]. -/
theorem weight_apply (x1 : S8192x8192.Idx → BitVec 32) (x2 x3 : S8192.Idx → EReal) (j : S8192x8192.Idx) :
    val_main_v6 (F := Ideal) x1 x2 x3 j = ofWord (x1 j) * x2 (ix1 (j 0 : Fin 8192)) + x3 (ix1 (j 0 : Fin 8192)) := by
  rw [val_main_v6_apply, val_main_v3_apply, val_main_v0_apply, val_main_v2_apply, val_main_v1_apply, val_main_v5_apply,
    val_main_v4_apply, idx_scale, idx_zero]
  rfl

/-- The reference's result is the layer with the weight dequantized entry by entry. -/
theorem ref_eq (x0 : S64x8192.Idx → EReal) (x1 : S8192x8192.Idx → BitVec 32) (x2 x3 : S8192.Idx → EReal)
    (x4 : S8192.Idx → BitVec 32) (x5 x6 : S8192.Idx → EReal) :
    val_main_v13 (F := Ideal) x0 x1 x2 x3 x4 x5 x6 = Cert.QLinear.G x0 x1 x2 x3 x4 x5 x6 := by
  funext i
  rw [val_main_v13_apply, val_main_v7_apply, val_main_v12_apply, val_main_v11_apply, val_main_v10_apply,
    val_main_v9_apply, val_main_v8_apply, idx_bias]
  have hsum : ∀ k : Fin 8192, x0 (lidx_main_v7 i k) * val_main_v6 (F := Ideal) x1 x2 x3 (ridx_main_v7 i k)
      = x0 (ix2 (i 0 : Fin 64) k) * (ofWord (x1 (ix2 (i 1 : Fin 8192) k)) * x2 (ix1 (i 1 : Fin 8192)) + x3 (ix1 (i 1 : Fin 8192))) := by
    intro k
    rw [weight_apply, lidx_eq, ridx_eq]
    rfl
  rw [Finset.sum_congr rfl fun k _ => hsum k]
  rfl

end Cert.QLinear.Ref

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.Finite.lean ====
/-
  The inputs the layer's algebra needs are real numbers.

  The precondition is the conjunction of five tests, one per floating-point input, each saying that every entry of
  that input has absolute value below +∞; it is asserted to be 1. A conjunction of one-bit words is 1 exactly when
  each of them is, and one test being 1 says that every entry of its input is a real number. Three of the five are
  used: the activations, the weight's scales and the weight's zero points.
-/
import proofs.«106551_j43894565765814_2_alg».proof.Pre_finite_inputs
import proofs.«106551_j43894565765814_2_alg».proof.Proof.Gen.Pre_finite_inputs
import proofs.«106551_j43894565765814_2_alg».proof.Proof.LibFiniteEntries

noncomputable section

namespace Cert.QLinear.Finite

open Idealize.ShloMosaic Idealize.ShloMosaic.ValueIdx Cert.Pre_finite_inputs Cert.Pre_finite_inputs.Facts

/-- Under the precondition, every activation, every weight scale and every weight zero point is a real number. -/
theorem real_inputs [Cert.Pre_finite_inputs.Facts] (a0 : FVec Ideal Cert.Pre_finite_inputs.S64x8192 .f32)
    (a1 : IVec Cert.Pre_finite_inputs.S8192x8192 32) (a2 a3 : FVec Ideal Cert.Pre_finite_inputs.S8192 .f32)
    (a4 : IVec Cert.Pre_finite_inputs.S8192 32) (a5 a6 : FVec Ideal Cert.Pre_finite_inputs.S8192 .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ix0
  dsimp only [fn, fn_part1, andi] at h0
  rw [IntOp.andi_eq_one, IntOp.andi_eq_one, IntOp.andi_eq_one, IntOp.andi_eq_one] at h0
  obtain ⟨⟨⟨⟨hx, hs⟩, hz⟩, _⟩, _⟩ := h0
  exact ⟨Cert.Lib.real_of_all_finite a0 _ _ _ hx, Cert.Lib.real_of_all_finite a2 _ _ _ hs,
    Cert.Lib.real_of_all_finite a3 _ _ _ hz⟩

end Cert.QLinear.Finite

end
-- ==== Proof.Pieces.lean ====
/-
  What one grid step leaves behind, as values.

  The grid is 8 output tiles by 4 column blocks, the column block running fastest. One step of the body, at tile o and
  column block k, holds a [64, 2048] block of the activations, a [1024, 2048] block of the integer weight and a
  [64, 1024] accumulator that lives across the four steps of a tile:
    * k = 0      : the accumulator is cleared, then the block's product is added:   acc := 0 + x_blk · w_blkᵀ;
    * k = 1, 2   : the block's product is added:                                    acc := acc + x_blk · w_blkᵀ;
    * k = 3      : the same, and then the output tile is written from the accumulator and the per-channel vectors.
  Each statement below says that what the step leaves in the accumulator (or in the output tile) is the body's
  arithmetic applied to the blocks it was given: every load reads a whole buffer, every store overwrites a whole
  buffer, and a load after a store reads what was stored.
-/
import proofs.«106551_j43894565765814_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every load and store of the body starts at the origin of its buffer. -/
theorem hz : (![0, 0] : Fin 2 → Nat) = fun _ => 0 := funext fun a => by fin_cases a <;> rfl

/-- A first step (k = 0) leaves in the accumulator the block product added to the cleared accumulator. -/
theorem scratch_A (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1 .f32) (harg9 : arg9.IsWhole) (arg10 : Memref sig .tc .vmem S64x1024 .f32) (harg10 : arg10.IsWhole) (arg11 : Memref sig .tc .vmem S64x1024 .f32) (harg11 : arg11.IsWhole) (hc0 : cond0_0 i) (hc1 : ¬cond0_1 i)
    (x0 : Vec F S64x2048 .f32) (x1 : Vec F S1024x2048 .i32) (x2 : Vec F S1x1024 .f32) (x3 : Vec F S1x1024 .f32) (x4 : Vec F S1x1024 .i32) (x5 : Vec F S1x1024 .f32) (x6 : Vec F S1x1024 .f32) (x7 : Vec F S64x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay2 x1 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S64x1024) hz, View.readCov_unit_zero (S := S64x1024) _ hz]
  simp only [View.readAt_eq_ld, harg2.read_unread, harg3.read_unread, harg4.read_unread, harg5.read_unread, harg6.read_unread, harg7.read_unread, harg8.read_unread, harg9.read_unread, harg11.read_unread, View.ld_unit_zero (S := S64x2048) hz, View.ld_unit_zero (S := S1024x2048) hz, View.ld_unit_zero (S := S64x1024) hz, View.ld_unit_zero (S := S1x1024) hz, View.ld_unit_zero (S := S64x1) hz]

/-- A middle step (k = 1, 2) leaves the block product added to what the step before left. -/
theorem scratch_B (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1 .f32) (harg9 : arg9.IsWhole) (arg10 : Memref sig .tc .vmem S64x1024 .f32) (harg10 : arg10.IsWhole) (arg11 : Memref sig .tc .vmem S64x1024 .f32) (harg11 : arg11.IsWhole) (hc0 : ¬cond0_0 i) (hc1 : ¬cond0_1 i)
    (x0 : Vec F S64x2048 .f32) (x1 : Vec F S1024x2048 .i32) (x2 : Vec F S1x1024 .f32) (x3 : Vec F S1x1024 .f32) (x4 : Vec F S1x1024 .i32) (x5 : Vec F S1x1024 .f32) (x6 : Vec F S1x1024 .f32) (x7 : Vec F S64x1 .f32) (xs0 : Vec F S64x1024 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x1 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg11.read_unread, View.ld_unit_zero (S := S64x2048) hz, View.ld_unit_zero (S := S1024x2048) hz, View.ld_unit_zero (S := S64x1024) hz, View.ld_unit_zero (S := S1x1024) hz, View.ld_unit_zero (S := S64x1) hz]

/-- A last step (k = 3) leaves the same in the accumulator, -/
theorem scratch_C (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1 .f32) (harg9 : arg9.IsWhole) (arg10 : Memref sig .tc .vmem S64x1024 .f32) (harg10 : arg10.IsWhole) (arg11 : Memref sig .tc .vmem S64x1024 .f32) (harg11 : arg11.IsWhole) (hc0 : ¬cond0_0 i) (hc1 : cond0_1 i)
    (x0 : Vec F S64x2048 .f32) (x1 : Vec F S1024x2048 .i32) (x2 : Vec F S1x1024 .f32) (x3 : Vec F S1x1024 .f32) (x4 : Vec F S1x1024 .i32) (x5 : Vec F S1x1024 .f32) (x6 : Vec F S1x1024 .f32) (x7 : Vec F S64x1 .f32) (xs0 : Vec F S64x1024 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x1 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, View.ld_unit_zero (S := S64x2048) hz, View.ld_unit_zero (S := S1024x2048) hz, View.ld_unit_zero (S := S64x1024) hz, View.ld_unit_zero (S := S1x1024) hz, View.ld_unit_zero (S := S64x1) hz]

/-- and writes the output tile from that accumulator and the tile's per-channel vectors. -/
theorem out_C (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1 .f32) (harg9 : arg9.IsWhole) (arg10 : Memref sig .tc .vmem S64x1024 .f32) (harg10 : arg10.IsWhole) (arg11 : Memref sig .tc .vmem S64x1024 .f32) (harg11 : arg11.IsWhole) (hc0 : ¬cond0_0 i) (hc1 : cond0_1 i)
    (x0 : Vec F S64x2048 .f32) (x1 : Vec F S1024x2048 .i32) (x2 : Vec F S1x1024 .f32) (x3 : Vec F S1x1024 .f32) (x4 : Vec F S1x1024 .i32) (x5 : Vec F S1x1024 .f32) (x6 : Vec F S1x1024 .f32) (x7 : Vec F S64x1 .f32) (xs0 : Vec F S64x1024 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 x4 x5 x6 x2 x3 x7 (k0_pay2 x1 x0 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz, View.readCov_unit_zero (S := S64x1024) _ hz]
  simp only [View.readAt_eq_ld, harg2.read_unread, harg3.read_unread, harg4.read_unread, harg5.read_unread, harg6.read_unread, harg7.read_unread, harg8.read_unread, harg9.read_unread, harg11.read_unread, View.ld_unit_zero (S := S64x2048) hz, View.ld_unit_zero (S := S1024x2048) hz, View.ld_unit_zero (S := S64x1024) hz, View.ld_unit_zero (S := S1x1024) hz, View.ld_unit_zero (S := S64x1) hz]

end Cert.KernelIdeal.Pieces

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.Payload.lean ====
/-
  The body's arithmetic at one entry, on the extended reals.

  At the ideal values a change of float format is the identity and an integer is converted to the real number it
  denotes, whatever the target format. So, at row p and column q of a [64, 1024] tile:
    * the cleared accumulator is 0;
    * one accumulation step adds, to the accumulator's entry, the sum over the 2048 columns k of the block of
      x(p, k) · w(q, k) — a product of rows with rows into a zero accumulator;
    * the epilogue reads  acc(p, q) · s(q) + xs(p) · z(q) + (bq(q) · bs(q) + bz(q)),  the [1, 1024] vectors repeated
      down the rows and the [64, 1] column of row sums repeated along the columns.
-/
import proofs.«106551_j43894565765814_2_alg».proof.Proof.Gen.KernelIdeal.Skeleton
import proofs.«106551_j43894565765814_2_alg».proof.Proof.LibMatmulRows
import proofs.«106551_j43894565765814_2_alg».proof.Proof.LibKeepdims
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The cleared accumulator is zero at every entry. -/
theorem cleared_apply (j : S64x1024.Idx) : k0_pay1 (F := Ideal) j = 0 := by
  unfold k0_pay1
  simp only [shapeCast_self]
  exact Ideal.ofBits_zero_f32

/-- One accumulation step at (p, q): the accumulator's entry plus the block's row-by-row product. -/
theorem step_apply (v3 : Vec Ideal S1024x2048 .i32) (v5 : Vec Ideal S64x2048 .f32) (v7 : Vec Ideal S64x1024 .f32)
    (p : Fin 64) (q : Fin 1024) :
    k0_pay2 v3 v5 v7 (ix2 p q)
      = v7 (ix2 p q) + ∑ k : Fin 2048, v5 (ix2 p k) * (((v3 (ix2 q k)).toInt : ℝ) : EReal) := by
  unfold k0_pay2
  simp only [shapeCast_self]
  refine congrArg (v7 (ix2 p q) + ·) ?_
  exact Cert.Lib.matmulRows_zero_apply dot_S64x2048_S1024x2048_S64x1024_1_1_0_0_n_n_wf
    (truncf .bf16 v5 bitsLt_bf16_f32) (sitofp .bf16 v3) p q

/-- The epilogue at (p, q). -/
theorem epilogue_apply (v16 : Vec Ideal S1x1024 .i32) (v19 v22 v25 v27 : Vec Ideal S1x1024 .f32) (v29 : Vec Ideal S64x1 .f32)
    (v31 : Vec Ideal S64x1024 .f32) (p : Fin 64) (q : Fin 1024) :
    k0_pay3 v16 v19 v22 v25 v27 v29 v31 (ix2 p q)
      = (v31 (ix2 p q) * v25 (ix2 (0 : Fin 1) q) + v29 (ix2 p (0 : Fin 1)) * v27 (ix2 (0 : Fin 1) q))
        + ((((v16 (ix2 (0 : Fin 1) q)).toInt : ℝ) : EReal) * v19 (ix2 (0 : Fin 1) q) + v22 (ix2 (0 : Fin 1) q)) := by
  unfold k0_pay3
  simp only [shapeCast_self]
  show ((v31 (ix2 p q) * broadcastTo S64x1024 v25 broadcasts_S1x1024_S64x1024 (ix2 p q)
        + broadcastTo S64x1024 v29 broadcasts_S64x1_S64x1024 (ix2 p q) * broadcastTo S64x1024 v27 broadcasts_S1x1024_S64x1024 (ix2 p q))
      + broadcastTo S64x1024 (addf (mulf (sitofp (F := Ideal) .f32 v16) v19) v22 : FVec Ideal S1x1024 .f32)
          broadcasts_S1x1024_S64x1024 (ix2 p q) : EReal) = _
  rw [broadcastTo_1b_ab_apply v25, broadcastTo_1b_ab_apply v27, Cert.Lib.broadcastTo_a1_ab_apply v29,
    broadcastTo_1b_ab_apply (addf (mulf (sitofp (F := Ideal) .f32 v16) v19) v22 : FVec Ideal S1x1024 .f32)]
  rfl

end Cert.KernelIdeal.Payload

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«106551_j43894565765814_2_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.Blocks.lean ====
/-
  The blocks a grid step is given, as entries of the argument arrays.

  Step t of the 32 is output tile t / 4 and column block t % 4. Its blocks are rectangles of the arrays the region finds:
    * the activations' block is rows 0..63, columns 2048·(t % 4) + kk;
    * the weight's block is rows 1024·(t / 4) + q, columns 2048·(t % 4) + kk;
    * each per-channel vector was laid out as one row [1, 8192] before the grid runs, and its block is the 1024 channels
      1024·(t / 4) + q of the step's tile;
    * the row sums of the activations were computed before the grid runs and kept as a column [64, 1]; every step reads
      the whole column, whose entry p is the sum of row p of the activations (the sum starts from zero).
  A block's entry is the array's entry at (block index × block extent + position in the block) on each axis; the block
  indices are decided once over the 32 steps.
-/
import proofs.«106551_j43894565765814_2_alg».proof.Proof.Gen.KernelIdeal.Frame
import proofs.«106551_j43894565765814_2_alg».proof.Proof.Spec
import proofs.«106551_j43894565765814_2_alg».proof.Proof.LibHostReads
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-- The output channel that position `q` of step `t`'s tile stands for. -/
abbrev chan (t : Fin cfg0.N) (q : Fin 1024) : Fin 8192 :=
  ⟨1024 * (t.val / 4) + q.val, by have h1 := q.isLt; have h2 : t.val < 32 := lt_of_lt_of_eq t.isLt (show cfg0.N = 32 from N_0); omega⟩

/-- An array read at an index with given coordinates. -/
theorem at_ix2 {α : Type} {n0 n1 : ℕ} (B : (⟨2, ![n0, n1]⟩ : Shape).Idx → α) (j : (⟨2, ![n0, n1]⟩ : Shape).Idx)
    (a : Fin n0) (b : Fin n1) (h0 : (j 0).val = a.val) (h1 : (j 1).val = b.val) : B j = B (ix2 a b) :=
  congrArg B (funext fun d => Fin.ext (match d with | ⟨0, _⟩ => h0 | ⟨1, _⟩ => h1))

/-- A vector laid out as one row reads, at (0, q), the vector at q. -/
theorem row_cast_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_one, Shape.rowMajor_val_two]
    show q.val = u.val * b + q.val
    rw [hu, Nat.zero_mul, Nat.zero_add])

/-! ## The block indices, decided over the grid -/

theorem xIdx : ∀ t : Fin cfg0.N, win0_0.index t 0 = 0 ∧ win0_0.index t 1 = t.val % 4 :=
  (by decide +kernel : ∀ t : Fin grid0.N, win0_0.index t 0 = 0 ∧ win0_0.index t 1 = t.val % 4)
theorem wIdx : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem rowIdx2 : ∀ t : Fin cfg0.N, win0_2.index t 0 = 0 ∧ win0_2.index t 1 = t.val / 4 :=
  (by decide +kernel : ∀ t : Fin grid0.N, win0_2.index t 0 = 0 ∧ win0_2.index t 1 = t.val / 4)
theorem rowIdx3 : ∀ t : Fin cfg0.N, win0_3.index t 0 = 0 ∧ win0_3.index t 1 = t.val / 4 :=
  (by decide +kernel : ∀ t : Fin grid0.N, win0_3.index t 0 = 0 ∧ win0_3.index t 1 = t.val / 4)
theorem rowIdx4 : ∀ t : Fin cfg0.N, win0_4.index t 0 = 0 ∧ win0_4.index t 1 = t.val / 4 :=
  (by decide +kernel : ∀ t : Fin grid0.N, win0_4.index t 0 = 0 ∧ win0_4.index t 1 = t.val / 4)
theorem rowIdx5 : ∀ t : Fin cfg0.N, win0_5.index t 0 = 0 ∧ win0_5.index t 1 = t.val / 4 :=
  (by decide +kernel : ∀ t : Fin grid0.N, win0_5.index t 0 = 0 ∧ win0_5.index t 1 = t.val / 4)
theorem rowIdx6 : ∀ t : Fin cfg0.N, win0_6.index t 0 = 0 ∧ win0_6.index t 1 = t.val / 4 :=
  (by decide +kernel : ∀ t : Fin grid0.N, win0_6.index t 0 = 0 ∧ win0_6.index t 1 = t.val / 4)
theorem sumIdx : ∀ t : Fin cfg0.N, win0_7.index t 0 = 0 ∧ win0_7.index t 1 = 0 :=
  (by decide +kernel : ∀ t : Fin grid0.N, win0_7.index t 0 = 0 ∧ win0_7.index t 1 = 0)

variable (m : (ℓ : Loc nD τ sig) → Buf (Elt Ideal) ℓ)

/-! ## The activations and the weight -/

/-- The activations' block at step `t`: row p, column 2048·(t % 4) + kk. -/
theorem x_blk (c : Dev nD) (t : Fin cfg0.N) (p : Fin 64) (kk : Fin 2048) :
    (iblk m c 0 t : Vec Ideal S64x2048 .f32) (ix2 p kk)
      = Cert.QLinear.xAt (m ((c : Thread nD τ).loc main_arg0)) p (2048 * (t.val % 4) + kk.val) := by
  have hb : 2048 * (t.val % 4) + kk.val < 8192 := by have := kk.isLt; omega
  unfold Cert.QLinear.xAt
  rw [dif_pos hb]
  unfold iblk
  rw [View.read_apply]
  show V m c main_arg0 _ = _
  refine (congrFun (V_main_arg0 m c) _).trans ?_
  refine at_ix2 _ _ p (⟨2048 * (t.val % 4) + kk.val, hb⟩ : Fin 8192) ?_ ?_
  · show win0_0.index t 0 * 64 + 1 * p.val = p.val
    rw [(xIdx t).1]; omega
  · show win0_0.index t 1 * 2048 + 1 * kk.val = 2048 * (t.val % 4) + kk.val
    rw [(xIdx t).2]; omega

/-- The weight's block at step `t`, as real numbers: row 1024·(t / 4) + q, column 2048·(t % 4) + kk. -/
theorem w_blk (c : Dev nD) (t : Fin cfg0.N) (q : Fin 1024) (kk : Fin 2048) :
    (((iblk m c 1 t : Vec Ideal S1024x2048 .i32) (ix2 q kk)).toInt : ℝ)
      = Cert.QLinear.wAt (m ((c : Thread nD τ).loc main_arg1)) (1024 * (t.val / 4) + q.val) (2048 * (t.val % 4) + kk.val) := by
  have hN : t.val < 32 := lt_of_lt_of_eq t.isLt (show cfg0.N = 32 from N_0)
  have hr : 1024 * (t.val / 4) + q.val < 8192 := by have := q.isLt; omega
  have hb : 2048 * (t.val % 4) + kk.val < 8192 := by have := kk.isLt; omega
  unfold Cert.QLinear.wAt
  rw [dif_pos ⟨hr, hb⟩]
  refine congrArg (fun b : BitVec 32 => (((b.toInt : ℝ)) : EReal)) ?_
  unfold iblk
  rw [View.read_apply]
  show V m c main_arg1 _ = _
  refine (congrFun (V_main_arg1 m c) _).trans ?_
  refine at_ix2 _ _ (⟨1024 * (t.val / 4) + q.val, hr⟩ : Fin 8192) (⟨2048 * (t.val % 4) + kk.val, hb⟩ : Fin 8192) ?_ ?_
  · show win0_1.index t 0 * 1024 + 1 * q.val = 1024 * (t.val / 4) + q.val
    rw [(wIdx t).1]; omega
  · show win0_1.index t 1 * 2048 + 1 * kk.val = 2048 * (t.val % 4) + kk.val
    rw [(wIdx t).2]; omega

/-! ## The per-channel vectors -/

/-- Before the grid runs, `main_v0` is `main_arg2` laid out as one row. -/
theorem scale_row (c : Dev nD) : (V m c main_v0 : S1x8192.Idx → EReal)
    = shapeCast S1x8192 (m ((c : Thread nD τ).loc main_arg2)) shapeCasts_S8192_S1x8192 := by
  dsimp only [Gen.V, Gen.hostOps0]
  after_results
  rfl

/-- Window 2's block at a step is the 1024 entries of `main_arg2` belonging to the step's output tile. -/
theorem scale_blk (c : Dev nD) (t : Fin cfg0.N) (u : Fin 1) (q : Fin 1024) :
    (iblk m c 2 t : Vec Ideal S1x1024 .f32) (ix2 u q)
      = m ((c : Thread nD τ).loc main_arg2) (ix1 (chan t q)) := by
  unfold iblk
  rw [View.read_apply]
  show V m c main_v0 _ = _
  refine (congrFun (scale_row m c) _).trans ?_
  refine (at_ix2 _ _ (0 : Fin 1) (chan t q) ?_ ?_).trans (row_cast_apply _ _ 0 (chan t q))
  · show win0_2.index t 0 * 1 + 1 * u.val = 0
    have hu : u.val = 0 := by omega
    rw [(rowIdx2 t).1, hu]
  · show win0_2.index t 1 * 1024 + 1 * q.val = 1024 * (t.val / 4) + q.val
    rw [(rowIdx2 t).2]; omega

/-- Before the grid runs, `main_v1` is `main_arg3` laid out as one row. -/
theorem zero_row (c : Dev nD) : (V m c main_v1 : S1x8192.Idx → EReal)
    = shapeCast S1x8192 (m ((c : Thread nD τ).loc main_arg3)) shapeCasts_S8192_S1x8192 := by
  dsimp only [Gen.V, Gen.hostOps0]
  after_results
  rfl

/-- Window 3's block at a step is the 1024 entries of `main_arg3` belonging to the step's output tile. -/
theorem zero_blk (c : Dev nD) (t : Fin cfg0.N) (u : Fin 1) (q : Fin 1024) :
    (iblk m c 3 t : Vec Ideal S1x1024 .f32) (ix2 u q)
      = m ((c : Thread nD τ).loc main_arg3) (ix1 (chan t q)) := by
  unfold iblk
  rw [View.read_apply]
  show V m c main_v1 _ = _
  refine (congrFun (zero_row m c) _).trans ?_
  refine (at_ix2 _ _ (0 : Fin 1) (chan t q) ?_ ?_).trans (row_cast_apply _ _ 0 (chan t q))
  · show win0_3.index t 0 * 1 + 1 * u.val = 0
    have hu : u.val = 0 := by omega
    rw [(rowIdx3 t).1, hu]
  · show win0_3.index t 1 * 1024 + 1 * q.val = 1024 * (t.val / 4) + q.val
    rw [(rowIdx3 t).2]; omega

/-- Before the grid runs, `main_v2` is `main_arg4` laid out as one row. -/
theorem biasq_row (c : Dev nD) : (V m c main_v2 : S1x8192.Idx → BitVec 32)
    = shapeCast S1x8192 (m ((c : Thread nD τ).loc main_arg4)) shapeCasts_S8192_S1x8192 := by
  dsimp only [Gen.V, Gen.hostOps0]
  after_results
  rfl

/-- Window 4's block at a step is the 1024 entries of `main_arg4` belonging to the step's output tile. -/
theorem biasq_blk (c : Dev nD) (t : Fin cfg0.N) (u : Fin 1) (q : Fin 1024) :
    (iblk m c 4 t : Vec Ideal S1x1024 .i32) (ix2 u q)
      = m ((c : Thread nD τ).loc main_arg4) (ix1 (chan t q)) := by
  unfold iblk
  rw [View.read_apply]
  show V m c main_v2 _ = _
  refine (congrFun (biasq_row m c) _).trans ?_
  refine (at_ix2 _ _ (0 : Fin 1) (chan t q) ?_ ?_).trans (row_cast_apply _ _ 0 (chan t q))
  · show win0_4.index t 0 * 1 + 1 * u.val = 0
    have hu : u.val = 0 := by omega
    rw [(rowIdx4 t).1, hu]
  · show win0_4.index t 1 * 1024 + 1 * q.val = 1024 * (t.val / 4) + q.val
    rw [(rowIdx4 t).2]; omega

/-- Before the grid runs, `main_v3` is `main_arg5` laid out as one row. -/
theorem biass_row (c : Dev nD) : (V m c main_v3 : S1x8192.Idx → EReal)
    = shapeCast S1x8192 (m ((c : Thread nD τ).loc main_arg5)) shapeCasts_S8192_S1x8192 := by
  dsimp only [Gen.V, Gen.hostOps0]
  after_results
  rfl

/-- Window 5's block at a step is the 1024 entries of `main_arg5` belonging to the step's output tile. -/
theorem biass_blk (c : Dev nD) (t : Fin cfg0.N) (u : Fin 1) (q : Fin 1024) :
    (iblk m c 5 t : Vec Ideal S1x1024 .f32) (ix2 u q)
      = m ((c : Thread nD τ).loc main_arg5) (ix1 (chan t q)) := by
  unfold iblk
  rw [View.read_apply]
  show V m c main_v3 _ = _
  refine (congrFun (biass_row m c) _).trans ?_
  refine (at_ix2 _ _ (0 : Fin 1) (chan t q) ?_ ?_).trans (row_cast_apply _ _ 0 (chan t q))
  · show win0_5.index t 0 * 1 + 1 * u.val = 0
    have hu : u.val = 0 := by omega
    rw [(rowIdx5 t).1, hu]
  · show win0_5.index t 1 * 1024 + 1 * q.val = 1024 * (t.val / 4) + q.val
    rw [(rowIdx5 t).2]; omega

/-- Before the grid runs, `main_v4` is `main_arg6` laid out as one row. -/
theorem biasz_row (c : Dev nD) : (V m c main_v4 : S1x8192.Idx → EReal)
    = shapeCast S1x8192 (m ((c : Thread nD τ).loc main_arg6)) shapeCasts_S8192_S1x8192 := by
  dsimp only [Gen.V, Gen.hostOps0]
  after_results
  rfl

/-- Window 6's block at a step is the 1024 entries of `main_arg6` belonging to the step's output tile. -/
theorem biasz_blk (c : Dev nD) (t : Fin cfg0.N) (u : Fin 1) (q : Fin 1024) :
    (iblk m c 6 t : Vec Ideal S1x1024 .f32) (ix2 u q)
      = m ((c : Thread nD τ).loc main_arg6) (ix1 (chan t q)) := by
  unfold iblk
  rw [View.read_apply]
  show V m c main_v4 _ = _
  refine (congrFun (biasz_row m c) _).trans ?_
  refine (at_ix2 _ _ (0 : Fin 1) (chan t q) ?_ ?_).trans (row_cast_apply _ _ 0 (chan t q))
  · show win0_6.index t 0 * 1 + 1 * u.val = 0
    have hu : u.val = 0 := by omega
    rw [(rowIdx6 t).1, hu]
  · show win0_6.index t 1 * 1024 + 1 * q.val = 1024 * (t.val / 4) + q.val
    rw [(rowIdx6 t).2]; omega

/-! ## The row sums -/

/-- Before the grid runs, `main_v6` is the column of the activations' row sums. -/
theorem sums_col (c : Dev nD) : (V m c main_v6 : S64x1.Idx → EReal)
    = broadcastInDim S64x1 ![0] bcast_S64_S64x1_0 (Host.reduceAdd (m ((c : Thread nD τ).loc main_arg0))
        (constant (F := Ideal) S_ .f32 0x00000000#32) reducesTo_S64x8192_S64_d1 h_S_) := by
  dsimp only [Gen.V, Gen.hostOps0]
  after_results

/-- The activations as launched. -/
abbrev acts (c : Dev nD) : S64x8192.Idx → EReal := m ((c : Thread nD τ).loc main_arg0)

/-- Every step reads the whole column: entry p is the sum of row p of the activations. -/
theorem sums_blk (c : Dev nD) (t : Fin cfg0.N) (p : Fin 64) (u : Fin 1) :
    (iblk m c 7 t : Vec Ideal S64x1 .f32) (ix2 p u)
      = ∑ k : Fin 8192, acts m c (ix2 p k) := by
  unfold iblk
  rw [View.read_apply]
  show V m c main_v6 _ = _
  refine (congrFun (sums_col m c) _).trans ?_
  refine (at_ix2 _ _ p (0 : Fin 1) ?_ ?_).trans ?_
  · show win0_7.index t 0 * 64 + 1 * p.val = p.val
    rw [(sumIdx t).1]; omega
  · show win0_7.index t 1 * 1 + 1 * u.val = 0
    have hu : u.val = 0 := by omega
    rw [(sumIdx t).2, hu]
  · exact (Cert.Lib.bcast_col_apply _ bcast_S64_S64x1_0 p 0).trans
      (Cert.Lib.host_rowSum_apply (by decide) _ reducesTo_S64x8192_S64_d1 h_S_ p)

end Cert.KernelIdeal.Blocks

end
-- ==== Proof.Acc.lean ====
/-
  The accumulator after each grid step.

  Within an output tile o the four steps k = 0, 1, 2, 3 run in order and the accumulator is cleared at k = 0. After
  step k its entry (p, q) is the sum, over the first 2048·(k + 1) columns i, of x(p, i) · w(1024·o + q, i): the first
  step contributes the first 2048 columns onto zero, and every later step adds the next 2048. The statement is an
  induction on the step number; sums over consecutive ranges of columns join by `Finset.sum_range_add`.
-/
import proofs.«106551_j43894565765814_2_alg».proof.Proof.Pieces
import proofs.«106551_j43894565765814_2_alg».proof.Proof.Payload
import proofs.«106551_j43894565765814_2_alg».proof.Proof.Blocks

set_option maxRecDepth 16384

noncomputable section

namespace Cert.KernelIdeal.Acc

open Cert.KernelIdeal Cert.KernelIdeal.Gen Idealize.ShloMosaic Idealize.ShloMosaic.TcCoe Idealize.SL.Sem Idealize.ShloMosaic.ValueIdx
open Cert.QLinear (xAt wAt)

section Steps

variable {F : FTy → Type} [FloatOps F] (m : (ℓ : Loc nD τ sig) → Buf (Elt F) ℓ)

/-- What a first step of a tile leaves in the accumulator: the step's block product onto the cleared accumulator. -/
theorem first_step (c : Dev nD) (t : Fin cfg0.N) (h0 : t.val % 4 = 0) :
    (outsAt0 m c t.val t.isLt).2 = k0_pay2 (iblk m c 1 t) (iblk m c 0 t) (k0_pay1 (F := F)) := by
  have h1 : ¬t.val % 4 = 3 := by omega
  rw [outsAt0_A m c t h0 h1]
  dsimp only
  exact Pieces.scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- What a later step leaves in the accumulator: the step's block product onto what the step before left. -/
theorem later_step (c : Dev nD) (t : Fin cfg0.N) (h0 : ¬t.val % 4 = 0) :
    (outsAt0 m c t.val t.isLt).2 = k0_pay2 (iblk m c 1 t) (iblk m c 0 t) (outsAt0 m c (t.val - 1) (Nat.lt_of_le_of_lt (Nat.sub_le _ _) t.isLt)).2 := by
  by_cases h1 : t.val % 4 = 3
  · rw [outsAt0_C m c t h0 h1]
    dsimp only
    exact Pieces.scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2
  · rw [outsAt0_B m c t h0 h1]
    dsimp only
    exact Pieces.scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

end Steps

variable (m : (ℓ : Loc nD τ sig) → Buf (Elt Ideal) ℓ)

/-- The activations' block at step `t`. -/
abbrev xb (c : Dev nD) (t : Fin cfg0.N) : Vec Ideal S64x2048 .f32 := iblk m c 0 t
/-- The weight's block at step `t`. -/
abbrev wb (c : Dev nD) (t : Fin cfg0.N) : Vec Ideal S1024x2048 .i32 := iblk m c 1 t

/-- Column i's term of entry (p, q) of output tile o: x(p, i) · w(1024·o + q, i). -/
def term (c : Dev nD) (o : ℕ) (p : Fin 64) (q : Fin 1024) (i : ℕ) : EReal :=
  xAt (m ((c : Thread nD τ).loc main_arg0)) p i * wAt (m ((c : Thread nD τ).loc main_arg1)) (1024 * o + q.val) i

theorem acc_first (c : Dev nD) (t : Fin cfg0.N) (h0 : t.val % 4 = 0) :
    (outsAt0 m c t.val t.isLt).2 = k0_pay2 (wb m c t) (xb m c t) (k0_pay1 (F := Ideal)) := first_step m c t h0

theorem acc_next (c : Dev nD) (t : Fin cfg0.N) (h0 : ¬t.val % 4 = 0) :
    (outsAt0 m c t.val t.isLt).2 = k0_pay2 (wb m c t) (xb m c t) (outsAt0 m c (t.val - 1) (Nat.lt_of_le_of_lt (Nat.sub_le _ _) t.isLt)).2 := later_step m c t h0

/-- The product of step `t`'s blocks at (p, q) is the sum of the step's 2048 column terms. -/
theorem block_sum (c : Dev nD) (t : Fin cfg0.N) (p : Fin 64) (q : Fin 1024) :
    ∑ kk : Fin 2048, xb m c t (ix2 p kk) * ((((wb m c t (ix2 q kk)).toInt : ℝ)) : EReal)
      = ∑ kk ∈ Finset.range 2048, term m c (t.val / 4) p q (2048 * (t.val % 4) + kk) := by
  rw [← Fin.sum_univ_eq_sum_range (fun kk => term m c (t.val / 4) p q (2048 * (t.val % 4) + kk)) 2048]
  refine Finset.sum_congr rfl fun kk _ => ?_
  exact congrArg₂ (· * ·) (Blocks.x_blk m c t p kk) (Blocks.w_blk m c t q kk)

/-- The next 2048 columns join the columns summed so far. -/
theorem range_step (f : ℕ → EReal) (k : ℕ) :
    (∑ i ∈ Finset.range (2048 * (k + 1)), f i) + ∑ kk ∈ Finset.range 2048, f (2048 * (k + 1) + kk)
      = ∑ i ∈ Finset.range (2048 * (k + 1 + 1)), f i := by
  rw [show 2048 * (k + 1 + 1) = 2048 * (k + 1) + 2048 by ring, Finset.sum_range_add]

/-- THE ACCUMULATOR after step n, at (p, q): the first 2048·(n % 4 + 1) column terms of tile n / 4. -/
theorem acc_eq (c : Dev nD) : ∀ (n : ℕ) (h : n < cfg0.N) (p : Fin 64) (q : Fin 1024),
    (outsAt0 m c n h).2 (ix2 p q) = ∑ i ∈ Finset.range (2048 * (n % 4 + 1)), term m c (n / 4) p q i
  | 0, h, p, q => by
    rw [acc_first m c ⟨0, h⟩ rfl, Payload.step_apply, Payload.cleared_apply, zero_add, block_sum]
    simp
  | n + 1, h, p, q => by
    by_cases h0 : (n + 1) % 4 = 0
    · rw [acc_first m c ⟨n + 1, h⟩ h0, Payload.step_apply, Payload.cleared_apply, zero_add, block_sum]
      dsimp only
      rw [h0]
      simp
    · rw [acc_next m c ⟨n + 1, h⟩ h0, Payload.step_apply, block_sum]
      have e1 : (n + 1) / 4 = n / 4 := by omega
      have e2 : (n + 1) % 4 = n % 4 + 1 := by omega
      have ih := acc_eq c n (Nat.lt_of_succ_lt h) p q
      show (outsAt0 m c n _).2 (ix2 p q) + _ = _
      rw [ih]
      dsimp only
      rw [e1, e2]
      exact range_step (term m c (n / 4) p q) (n % 4)

end Cert.KernelIdeal.Acc

end
-- ==== Proof.Final.lean ====
/-
  The output array after the run.

  Only the last step of a tile (k = 3) writes its output tile back, and by then the accumulator holds the sum over
  all 8192 columns. So the block written back at step t = 4·o + 3 is, at (p, q),

      (∑ᵢ x(p, i) · w(1024·o + q, i)) · s(1024·o + q) + (∑ᵢ x(p, i)) · z(1024·o + q) + bias(1024·o + q),

  the layer's factored form at (p, 1024·o + q): block t of that one array. The eight written blocks are the
  column bands 1024·o … 1024·o + 1023 of the [64, 8192] output and cover it; column j lies in the band of tile
  j / 1024, written at step 4·(j / 1024) + 3. Hence the output array ends holding the factored form everywhere.
-/
import proofs.«106551_j43894565765814_2_alg».proof.Proof.Acc
import proofs.«106551_j43894565765814_2_alg».proof.Proof.Gen.KernelIdeal.Value

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer in its factored form, of the argument arrays as launched. -/
def result (c : Dev nD) : Buf (Elt Ideal) ((c : Thread nD τ).loc main_v7) :=
  Cert.QLinear.K (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The output's block indices, decided over the grid. -/
theorem outIdx : ∀ t : Fin cfg0.N, win0_8.index t 0 = 0 ∧ win0_8.index t 1 = t.val / 4 :=
  (by decide +kernel : ∀ t : Fin grid0.N, win0_8.index t 0 = 0 ∧ win0_8.index t 1 = t.val / 4)

/-- One entry of the tile written at a last step, from what its blocks hold. -/
theorem tile_entry (c : Dev nD) (t : Fin cfg0.N) (h0 : ¬t.val % 4 = 0) (h3 : t.val % 4 = 3)
    (v16 : Vec Ideal S1x1024 .i32) (v19 v22 v25 v27 : Vec Ideal S1x1024 .f32) (v29 : Vec Ideal S64x1 .f32)
    (e25 : ∀ q : Fin 1024, v25 (ix2 (0 : Fin 1) q) = (m ((c : Thread nD τ).loc main_arg2)) (ix1 (Blocks.chan t q)))
    (e27 : ∀ q : Fin 1024, v27 (ix2 (0 : Fin 1) q) = (m ((c : Thread nD τ).loc main_arg3)) (ix1 (Blocks.chan t q)))
    (e16 : ∀ q : Fin 1024, v16 (ix2 (0 : Fin 1) q) = (m ((c : Thread nD τ).loc main_arg4)) (ix1 (Blocks.chan t q)))
    (e19 : ∀ q : Fin 1024, v19 (ix2 (0 : Fin 1) q) = (m ((c : Thread nD τ).loc main_arg5)) (ix1 (Blocks.chan t q)))
    (e22 : ∀ q : Fin 1024, v22 (ix2 (0 : Fin 1) q) = (m ((c : Thread nD τ).loc main_arg6)) (ix1 (Blocks.chan t q)))
    (e29 : ∀ p : Fin 64, v29 (ix2 p (0 : Fin 1)) = ∑ k : Fin 8192, Blocks.acts m c (ix2 p k))
    (y : S64x1024.Idx) (i : S64x8192.Idx) (hi0 : (i 0).val = (y 0).val)
    (hi1 : (i 1).val = 1024 * (t.val / 4) + (y 1).val) :
    k0_pay3 v16 v19 v22 v25 v27 v29 (k0_pay2 (Acc.wb m c t) (Acc.xb m c t) (outsAt0 m c (t.val - 1) (Nat.lt_of_le_of_lt (Nat.sub_le _ _) t.isLt)).2) y = result m c i := by
  obtain ⟨p, q, rfl⟩ : ∃ (p : Fin 64) (q : Fin 1024), y = ix2 p q := ⟨y 0, y 1, eq_ix2 y⟩
  have hi : i = ix2 p (Blocks.chan t q) := funext fun d => Fin.ext (match d with | ⟨0, _⟩ => hi0 | ⟨1, _⟩ => hi1)
  subst hi
  rw [Payload.epilogue_apply, ← Acc.acc_next m c t h0, Acc.acc_eq m c t.val t.isLt p q, e25 q, e27 q, e16 q, e19 q, e22 q, e29 p]
  have hsum : ∑ i ∈ Finset.range (2048 * (t.val % 4 + 1)), Acc.term m c (t.val / 4) p q i
      = ∑ k : Fin 8192, Blocks.acts m c (ix2 p k) * Cert.QLinear.ofWord ((m ((c : Thread nD τ).loc main_arg1)) (ix2 (Blocks.chan t q) k)) := by
    rw [h3, show 2048 * (3 + 1) = 8192 from rfl]
    exact Cert.QLinear.sum_range_eq _ _ p (Blocks.chan t q)
  rw [hsum]
  rfl

/-- WHAT A LAST STEP WRITES BACK is its block of the factored form. -/
theorem flushed_eq (c : Dev nD) (t : Fin cfg0.N) (hf : (cfg0.win 8).flush t = true) :
    (dats m 0 c).flushed 8 t = ((cfg0.win 8).blk t).view.read (Elt Ideal) (result m c) := by
  have h3 : t.val % 4 = 3 := (flush0_8 t).mp hf
  have h0 : ¬t.val % 4 = 0 := by omega
  refine (Value.flushed8_C m c t h0 h3).trans ?_
  refine (congrArg ((cfg0.win 8).cut (grid0.coords t)) (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2)).trans ?_
  funext y
  rw [View.read_apply]
  exact tile_entry m c t h0 h3 (iblk m c 4 t) (iblk m c 5 t) (iblk m c 6 t) (iblk m c 2 t) (iblk m c 3 t) (iblk m c 7 t)
    (fun q => Blocks.scale_blk m c t 0 q) (fun q => Blocks.zero_blk m c t 0 q) (fun q => Blocks.biasq_blk m c t 0 q)
    (fun q => Blocks.biass_blk m c t 0 q) (fun q => Blocks.biasz_blk m c t 0 q) (fun p => Blocks.sums_blk m c t p 0)
    y (((cfg0.win 8).blk t).view.emb y)
    (by show win0_8.index t 0 * 64 + 1 * (y 0).val = (y 0).val
        rw [(outIdx t).1]; omega)
    (by show win0_8.index t 1 * 1024 + 1 * (y 1).val = 1024 * (t.val / 4) + (y 1).val
        rw [(outIdx t).2]; omega)

/-- An index of the output array is in step `t`'s block iff each coordinate is in the block's range on its axis. -/
theorem mem_blk (t : Fin cfg0.N) (i : S64x8192.Idx) :
    i ∈ ((cfg0.win 8).blk t).view.set ↔ ∀ a : Fin 2, win0_8.index t a * S64x1024.size a ≤ (i a).val
      ∧ (i a).val < win0_8.index t a * S64x1024.size a + S64x1024.size a := by
  show i ∈ ((View.whole main_v7).slice (win0_8.rect t)).set ↔ _
  rw [View.set_slice_whole, Rect.mem_set_unit]
  exact Iff.rfl

/-- Every entry of the output lies in the block some last step writes back: column j in tile j / 1024's. -/
theorem covered (i : S64x8192.Idx) :
    ∃ t : Fin cfg0.N, (cfg0.win 8).flush t = true ∧ i ∈ ((cfg0.win 8).blk t).view.set := by
  have hi0 : (i 0).val < 64 := (i 0).isLt
  have hi1 : (i 1).val < 8192 := (i 1).isLt
  have hN : cfg0.N = 32 := N_0
  refine ⟨⟨4 * ((i 1).val / 1024) + 3, by rw [hN]; omega⟩, (flush0_8 _).mpr (by dsimp only; omega), ?_⟩
  rw [mem_blk]
  intro a
  obtain ⟨e0, e1⟩ := outIdx ⟨4 * ((i 1).val / 1024) + 3, by rw [hN]; omega⟩
  dsimp only at e1
  match a with
  | ⟨0, _⟩ =>
    show win0_8.index _ 0 * 64 ≤ (i 0).val ∧ (i 0).val < win0_8.index _ 0 * 64 + 64
    rw [e0]; omega
  | ⟨1, _⟩ =>
    show win0_8.index _ 1 * 1024 ≤ (i 1).val ∧ (i 1).val < win0_8.index _ 1 * 1024 + 1024
    rw [e1]; omega

/-- THE OUTPUT ARRAY after the run is the layer's factored form of the argument arrays. -/
theorem final (c : Dev nD) : (dats m 0 c).arrAt 8 cfg0.N = result m c :=
  (dats m 0 c).arrAt_eq_of_cover 8 (result m c) (flushed_eq m c) covered

/-- The run, read: the result array at the factored form, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.lean ====
/-
  A quantized linear layer, computed with the dequantization factored out of the inner product, against the layer
  computed with the weight dequantized entry by entry.

  The weight is stored as integers w[o, i] with a scale s[o] and a zero point z[o] per output channel; the bias as
  integers bq[o] with a scale bs[o] and a zero point bz[o]. The reference forms w[o, i] · s[o] + z[o] for every entry
  and contracts it with the activations. The kernel never forms the dequantized weight: over a grid of 8 output tiles
  by 4 column blocks it accumulates the integer product ∑ᵢ x[b, i] · w[o, i] tile by tile, and once per output entry
  applies  acc · s[o] + (∑ᵢ x[b, i]) · z[o] + bias[o],  the row sums ∑ᵢ x[b, i] computed once before the grid runs.

  At the ideal values both are functions of the same arguments on the extended reals:
      kernel     (∑ᵢ x·w) · s + (∑ᵢ x) · z + bias            (Proof/Final.lean: the output array after the run)
      reference  ∑ᵢ x · (w · s + z) + bias                    (Proof/RefIsG.lean, over the reference's run)
  and they agree because the activations, the scales and the zero points are real numbers under the precondition
  (Proof/Finite.lean), where a product distributes over a sum (Proof/Spec.lean, `K_eq_G`); the bias is the same term
  on both sides and needs no finiteness. The three frames are the programs' runs with the results dropped, and the
  kernel's idealization rewrote nothing.
-/
import proofs.«106551_j43894565765814_2_alg».proof.Defs
import proofs.«106551_j43894565765814_2_alg».proof.Proof.Gen.Kernel
import proofs.«106551_j43894565765814_2_alg».proof.Proof.Gen.Kernel.Frame
import proofs.«106551_j43894565765814_2_alg».proof.Proof.Gen.KernelIdeal
import proofs.«106551_j43894565765814_2_alg».proof.Proof.Gen.KernelIdeal.Frame
import proofs.«106551_j43894565765814_2_alg».proof.Proof.Gen.KernelIdeal.Value
import proofs.«106551_j43894565765814_2_alg».proof.Proof.Gen.ReferenceIdeal
import proofs.«106551_j43894565765814_2_alg».proof.Proof.Gen.ReferenceIdeal.Run
import proofs.«106551_j43894565765814_2_alg».proof.Proof.Gen.ReferenceIdeal.Read
import proofs.«106551_j43894565765814_2_alg».proof.Proof.Gen.Pre_finite_inputs
import proofs.«106551_j43894565765814_2_alg».proof.Proof.Spec
import proofs.«106551_j43894565765814_2_alg».proof.Proof.RefIsG
import proofs.«106551_j43894565765814_2_alg».proof.Proof.Finite
import proofs.«106551_j43894565765814_2_alg».proof.Proof.Final
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer's value: the kernel's output array at the factored form, the reference's at the
    entry-by-entry form of arguments that agree, and the two forms are one array where the activations, the scales and
    the zero points are real. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v13_eq, Cert.QLinear.Ref.ref_eq, e0, e1, e2, e3, e4, e5, e6]
  obtain ⟨hx, hs, hz⟩ := Cert.QLinear.Finite.real_inputs _ _ _ _ _ _ _ (hpre c)
  exact (Cert.QLinear.K_eq_G _ _ _ _ _ _ _ hx hs hz).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
